-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) : IVec S_ 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 1 := constantI S_ 1 1#1
  let main_v3 : IVec S_ 1 := (fun x v => Host.reduce IntOp.andi x v reducesTo_S128x100000_S_d0_1 h_S_) main_v2 main_c
  main_v3
-- ==== Kernel.lean ====
abbrev S128x100000 : Shape := ⟨2, ![128, 100000]⟩
abbrev S128x1 : Shape := ⟨2, ![128, 1]⟩
abbrev S128x6400 : Shape := ⟨2, ![128, 6400]⟩
abbrev S128 : Shape := ⟨1, ![128]⟩

abbrev nBuf : Space → Nat
  | .hbm => 3
  | .vmem => 3
  | .smem => 0
  | _ => 0

abbrev bufTy : (tb : Table) → Fin (tcTables nBuf tb) → BufTy
  | .hbm, ⟨0, _⟩ => ⟨S128x100000, .f32⟩
  | .hbm, ⟨1, _⟩ => ⟨S128x1, .f32⟩
  | .hbm, ⟨2, _⟩ => ⟨S128, .f32⟩
  | .local _ .vmem, ⟨0, _⟩ => ⟨S128x6400, .f32⟩
  | .local _ .vmem, ⟨1, _⟩ => ⟨S128x6400, .f32⟩
  | .local _ .vmem, ⟨2, _⟩ => ⟨S128x1, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S128x1_S128x1_0_0 : ∀ a, (![0, 0] : Fin 2 → Nat) a + S128x1.size a ≤ S128x1.size a
  h_S128x1 : 0 < S128x1.numel
  inb_S128x6400_S128x6400_0_0 : ∀ a, (![0, 0] : Fin 2 → Nat) a + S128x6400.size a ≤ S128x6400.size a
  h_S128x6400 : 0 < S128x6400.numel
  iota_S128x6400_d1_w32 : S128x6400.Iotas .tc 32 [1]
  shapeCasts_S128x1_S128x1 : S128x1.ShapeCasts S128x1
  reduces_S128x6400_S128 : S128x6400.Reduces [1] S128
  shapeCasts_S128_S128x1 : S128.ShapeCasts S128x1
  shapeCasts_S128x1_S128 : S128x1.ShapeCasts S128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S128x6400.size a < S128x100000.size a
  hwx0_0 : ∀ i : grid0.Coords, EltTy.bits .f32 = 32 ∨ (Rect.unit (s := S128x100000) (fun a => cc0_transform_0 i a * S128x6400.size a) (fun a => (Pipeline.Clip.of (cc0_transform_0 i a) (S128x6400.size a) (S128x100000.size a)).extent (S128x6400.size a)) fun a => Pipeline.Clip.inb (Pipeline.Clip.ok_of (hstart0_0 i a))).WholeWords (EltTy.packing .f32)
  hwxs0_0 : ∀ i : grid0.Coords, EltTy.bits .f32 = 32 ∨ (Rect.unit (s := S128x6400) (fun _ => 0) (fun a => (Pipeline.Clip.of (cc0_transform_0 i a) (S128x6400.size a) (S128x100000.size a)).extent (S128x6400.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S128x1.size a
  hwx0_1 : ∀ i : grid0.Coords, EltTy.bits .f32 = 32 ∨ (Rect.block (s := S128x1) S128x1.size (cc0_transform_1 i) (hinb0_1 i)).WholeWords (EltTy.packing .f32)

variable [Facts₀]

abbrev win0_0 : Pipeline.Window sig grid0 :=
  Pipeline.Window.ofSpecClip (Memref.whole main_arg0) S128x6400.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S128x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x100000 : Shape := ⟨2, ![128, 100000]⟩
abbrev S_ : Shape := ⟨0, ![]⟩
abbrev S128 : Shape := ⟨1, ![128]⟩

abbrev nBuf : Space → Nat
  | .hbm => 3
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S_, .f32⟩
  | .hbm, ⟨2, _⟩ => ⟨S128, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S128x100000_S128_d1 : S128x100000.ReducesTo [1] S128
  h_S_ : 0 < S_.numel

variable [Facts₀]

class Facts : Prop extends Facts₀ where

variable [Facts]
-- ==== Proof.LibMaskedMax.lean ====
import Idealize.ShloMosaic.Lib.ValueIdx
import Idealize.ShloMosaic.Lib.Pipeline.Value
import Idealize.ShloMosaic.PureOps
import Idealize.ShloMosaic.PureOps.Ideal.Laws
import Mathlib.Data.Finset.Lattice.Fold
import Mathlib.Data.Fintype.Lattice
import Mathlib.Order.Interval.Finset.Nat

noncomputable section

namespace MaskedMax

open Idealize.ShloMosaic Idealize.ShloMosaic.ValueIdx

/-! ## The column mask

A block of `n1` columns starts at column `t * c` of a longer row of length `L`; a column of the block is
inside the row exactly when its absolute position `t * c + k` is below `L`. The program computes the
absolute position in 32-bit words and compares it, signed, with the word of `L`; as long as every
position stays below `2 ^ 31` the words do not wrap and the signed comparison is the comparison of the
natural numbers. -/

/-- A one-bit word made from a Boolean is the bit `1` exactly when the Boolean is true. -/
theorem ofBool_eq_one_iff (b : Bool) : BitVec.ofBool b = 1#1 ↔ b = true := by
  cases b <;> decide

/-- The word of `a` times the word of `c`, plus the word of `b`, is the word of `a * c + b` (arithmetic of
    32-bit words is arithmetic modulo `2 ^ 32`, which the word of a natural number respects). -/
theorem word_mul_add (a c b : Nat) :
    BitVec.ofNat 32 a * BitVec.ofNat 32 c + BitVec.ofNat 32 b = BitVec.ofNat 32 (a * c + b) := by
  simp [BitVec.ofNat_add, BitVec.ofNat_mul]

/-- Below `2 ^ 31` the signed reading of the word of `n` is `n` itself. -/
theorem toInt_word (n : Nat) (h : n < 2 ^ 31) : (BitVec.ofNat 32 n).toInt = (n : Int) := by
  rw [BitVec.toInt_eq_toNat_of_lt (by simp; omega)]
  simp; omega

/-- Below `2 ^ 31` the signed comparison of two words is the comparison of the numbers. -/
theorem word_slt_iff (n L : Nat) (hn : n < 2 ^ 31) (hL : L < 2 ^ 31) :
    (BitVec.ofNat 32 n).slt (BitVec.ofNat 32 L) = true ↔ n < L := by
  rw [BitVec.slt_iff_toInt_lt, toInt_word n hn, toInt_word L hL]
  omega

/-- THE COLUMN MASK. On a block of shape `[n0, n1]`, the vector "block offset `t * c` plus the column's
    number within the block, compared signed-below with `L`" has the bit `1` at an index exactly when the
    column's absolute position `t * c + k` is below `L` — provided the positions of the block (`hb`) and
    the bound `L` (`hL`) stay below `2 ^ 31`, where 32-bit words neither wrap nor read as negative. -/
theorem colMask_eq_one_iff {n0 n1 : Nat} (h : (⟨2, ![n0, n1]⟩ : Shape).Iotas .tc 32 [1]) (t c L : Nat)
    (hb : t * c + n1 ≤ 2 ^ 31) (hL : L < 2 ^ 31) (j : (⟨2, ![n0, n1]⟩ : Shape).Idx) :
    cmpi .slt (addi (broadcast (⟨2, ![n0, n1]⟩ : Shape) (Scalar.muli (BitVec.ofNat 32 t) (BitVec.ofNat 32 c)))
          (iota .tc (⟨2, ![n0, n1]⟩ : Shape) 32 [1] h))
        (broadcast (⟨2, ![n0, n1]⟩ : Shape) (BitVec.ofNat 32 L)) j = 1#1
      ↔ t * c + (j 1).val < L := by
  have hj : (j 1).val < n1 := idx2_lt1 j
  show BitVec.ofBool ((BitVec.ofNat 32 t * BitVec.ofNat 32 c + BitVec.ofNat 32 (0 * n1 + (j 1).val)).slt
      (BitVec.ofNat 32 L)) = 1#1 ↔ _
  rw [ofBool_eq_one_iff, word_mul_add, word_slt_iff _ _ (by omega) hL]
  omega

/-- THE MASKED BLOCK, at any float instance (or none): selecting `x` under the column mask and `y`
    elsewhere reads `x` at the columns inside the row and `y` at the columns past its end. -/
theorem select_colMask_apply {α : Type} {n0 n1 : Nat} (h : (⟨2, ![n0, n1]⟩ : Shape).Iotas .tc 32 [1]) (t c L : Nat)
    (hb : t * c + n1 ≤ 2 ^ 31) (hL : L < 2 ^ 31) (x y : (⟨2, ![n0, n1]⟩ : Shape).Idx → α)
    (j : (⟨2, ![n0, n1]⟩ : Shape).Idx) :
    select (cmpi .slt (addi (broadcast (⟨2, ![n0, n1]⟩ : Shape) (Scalar.muli (BitVec.ofNat 32 t) (BitVec.ofNat 32 c)))
          (iota .tc (⟨2, ![n0, n1]⟩ : Shape) 32 [1] h))
        (broadcast (⟨2, ![n0, n1]⟩ : Shape) (BitVec.ofNat 32 L))) x y j
      = if t * c + (j 1).val < L then x j else y j := by
  rw [select_apply]
  by_cases hlt : t * c + (j 1).val < L
  · rw [(colMask_eq_one_iff h t c L hb hL j).mpr hlt, select_one, if_pos hlt]
  · rw [eq_zero_of_ne_one (fun e => hlt ((colMask_eq_one_iff h t c L hb hL j).mp e)), select_zero, if_neg hlt]

/-- Two blocks that agree at every column inside the row give the same masked block: the columns past the
    row's end are replaced by `y` in both. -/
theorem select_colMask_congr {α : Type} {n0 n1 : Nat} (h : (⟨2, ![n0, n1]⟩ : Shape).Iotas .tc 32 [1]) (t c L : Nat)
    (hb : t * c + n1 ≤ 2 ^ 31) (hL : L < 2 ^ 31) (x x' y : (⟨2, ![n0, n1]⟩ : Shape).Idx → α)
    (hx : ∀ j : (⟨2, ![n0, n1]⟩ : Shape).Idx, t * c + (j 1).val < L → x j = x' j) :
    select (cmpi .slt (addi (broadcast (⟨2, ![n0, n1]⟩ : Shape) (Scalar.muli (BitVec.ofNat 32 t) (BitVec.ofNat 32 c)))
          (iota .tc (⟨2, ![n0, n1]⟩ : Shape) 32 [1] h))
        (broadcast (⟨2, ![n0, n1]⟩ : Shape) (BitVec.ofNat 32 L))) x y
      = select (cmpi .slt (addi (broadcast (⟨2, ![n0, n1]⟩ : Shape) (Scalar.muli (BitVec.ofNat 32 t) (BitVec.ofNat 32 c)))
          (iota .tc (⟨2, ![n0, n1]⟩ : Shape) 32 [1] h))
        (broadcast (⟨2, ![n0, n1]⟩ : Shape) (BitVec.ofNat 32 L))) x' y := by
  funext j
  rw [select_colMask_apply h t c L hb hL, select_colMask_apply h t c L hb hL]
  by_cases hlt : t * c + (j 1).val < L
  · rw [if_pos hlt, if_pos hlt, hx j hlt]
  · rw [if_neg hlt, if_neg hlt]

/-! ## Suprema: a fold of `max` from `⊥`, blocks, and a running maximum -/

section Sup
variable {α : Type*} [LinearOrder α] [OrderBot α]

/-- A fold of `max` from `⊥` over a finite set is the supremum over it. -/
theorem fold_max_bot_eq_sup {ι : Type*} (s : Finset ι) (f : ι → α) : s.fold max ⊥ f = s.sup f := by
  induction s using Finset.cons_induction with
  | empty => rw [Finset.fold_empty, Finset.sup_empty]
  | cons a s ha ih => rw [Finset.fold_cons, Finset.sup_cons, ih]

/-- A supremum over the naturals below `n` is the supremum over `Fin n`. -/
theorem sup_range_eq_sup_fin (n : Nat) (g : Nat → α) :
    (Finset.range n).sup g = Finset.univ.sup fun s : Fin n => g s.val := by
  apply le_antisymm
  · exact Finset.sup_le fun m hm =>
      Finset.le_sup (f := fun s : Fin n => g s.val) (Finset.mem_univ (⟨m, Finset.mem_range.mp hm⟩ : Fin n))
  · exact Finset.sup_le fun s _ => Finset.le_sup (f := g) (Finset.mem_range.mpr s.isLt)

/-- THE BLOCKED SUPREMUM. Cut `Fin n` into `T` consecutive blocks of length `B` that together cover it
    (`n ≤ T * B`; the last blocks may overhang, and an overhanging position counts as `⊥`): the supremum of
    the blocks' suprema is the supremum over `Fin n`. -/
theorem sup_blocks {n T B : Nat} (hn : n ≤ T * B) (f : Fin n → α) :
    (Finset.univ.sup fun t : Fin T => Finset.univ.sup fun k : Fin B =>
        if h : t.val * B + k.val < n then f ⟨t.val * B + k.val, h⟩ else ⊥) = Finset.univ.sup f := by
  apply le_antisymm
  · refine Finset.sup_le fun t _ => Finset.sup_le fun k _ => ?_
    by_cases h : t.val * B + k.val < n
    · rw [dif_pos h]; exact Finset.le_sup (f := f) (Finset.mem_univ _)
    · rw [dif_neg h]; exact bot_le
  · refine Finset.sup_le fun m _ => ?_
    have hm : m.val < n := m.isLt
    have hB : 0 < B := by
      rcases Nat.eq_zero_or_pos B with h0 | h0
      · subst h0; omega
      · exact h0
    have ht : m.val / B < T := by
      apply Nat.div_lt_of_lt_mul
      rw [Nat.mul_comm]; omega
    have hk : m.val % B < B := Nat.mod_lt _ hB
    have hsum : m.val / B * B + m.val % B = m.val := Nat.div_add_mod' _ _
    have hlt : m.val / B * B + m.val % B < n := by omega
    have e : f m = (fun k : Fin B => if h : m.val / B * B + k.val < n then f ⟨m.val / B * B + k.val, h⟩ else ⊥)
        ⟨m.val % B, hk⟩ := by
      show f m = if h : m.val / B * B + m.val % B < n then f ⟨m.val / B * B + m.val % B, h⟩ else ⊥
      rw [dif_pos hlt]
      exact congrArg f (Fin.ext hsum.symm)
    rw [e]
    exact (Finset.le_sup (f := fun k : Fin B =>
        if h : m.val / B * B + k.val < n then f ⟨m.val / B * B + k.val, h⟩ else ⊥) (Finset.mem_univ _)).trans
      (Finset.le_sup (f := fun t : Fin T => Finset.univ.sup fun k : Fin B =>
        if h : t.val * B + k.val < n then f ⟨t.val * B + k.val, h⟩ else ⊥) (Finset.mem_univ (⟨m.val / B, ht⟩ : Fin T)))

/-- The blocked supremum with the blocks numbered by the naturals below `T`. -/
theorem sup_blocks_range {n T B : Nat} (hn : n ≤ T * B) (f : Fin n → α) :
    ((Finset.range T).sup fun s : ℕ => Finset.univ.sup fun k : Fin B =>
        if h : s * B + k.val < n then f ⟨s * B + k.val, h⟩ else ⊥) = Finset.univ.sup f := by
  rw [sup_range_eq_sup_fin]
  exact sup_blocks hn f

/-- THE RUNNING MAXIMUM. A sequence that starts at `max ⊥ (g 0)` and at each step takes the maximum of
    its previous value and the next `g` is, at step `t`, the supremum of `g` over the steps up to `t`. -/
theorem running_max_eq_sup (acc g : Nat → α) (h0 : acc 0 = max ⊥ (g 0))
    (hs : ∀ t, acc (t + 1) = max (acc t) (g (t + 1))) (t : Nat) :
    acc t = (Finset.range (t + 1)).sup g := by
  induction t with
  | zero =>
    rw [h0, Finset.range_add_one, Finset.sup_insert, Finset.range_zero, Finset.sup_empty]
    exact max_comm _ _
  | succ t ih =>
    rw [hs, ih, Finset.range_add_one (n := t + 1), Finset.sup_insert]
    exact max_comm _ _

/-- The running maximum as a supremum over `Fin (t + 1)`. -/
theorem running_max_eq_sup_fin (acc g : Nat → α) (h0 : acc 0 = max ⊥ (g 0))
    (hs : ∀ t, acc (t + 1) = max (acc t) (g (t + 1))) (t : Nat) :
    acc t = Finset.univ.sup fun s : Fin (t + 1) => g s.val := by
  rw [running_max_eq_sup acc g h0 hs t, sup_range_eq_sup_fin]

end Sup

/-! ## A row maximum at the ideal values, and the column shape cast -/

section Rows
variable {β : Type}

/-- An `[a]` vector cast to the column `[a, 1]` reads, at `(i, u)`, the operand at `i`, whatever the unit
    coordinate `u`. -/
theorem shapeCast_a_a1_apply {a : ℕ} (x : (⟨1, ![a]⟩ : Shape).Idx → β)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Over the second axis of a rank-2 shape, the source index above row `r` with coordinate `k` inserted is
    `(r, k)`. -/
theorem lift_axis1 {n0 n1 : Nat} (h : (⟨2, ![n0, n1]⟩ : Shape).Reduces [1] ⟨1, ![n0]⟩) (r : Fin n0) (k : Fin n1) :
    h.lift (ix1 r) k = ix2 r k := by
  funext a
  match a with
  | ⟨0, _⟩ => exact Fin.ext rfl
  | ⟨1, _⟩ => exact Fin.ext rfl

/-- A ROW MAXIMUM at the ideal values: a `maximumf` reduction of an `[n0, n1]` vector over its second axis,
    from an accumulator pattern that denotes `⊥`, is at row `r` the supremum of the row's entries. -/
theorem multiReduction_maximumf_rows {φ : FTy} {n0 n1 : Nat} (src : FVec Ideal ⟨2, ![n0, n1]⟩ φ) (acc : BitVec φ.bits)
    (h : (⟨2, ![n0, n1]⟩ : Shape).Reduces [1] ⟨1, ![n0]⟩) (hφ : FKind.Formats φ)
    (hacc : acc = FKind.maximumf.neutral φ hφ) (hbot : Ideal.ofBits φ acc = ⊥) (r : Fin n0) :
    multiReduction .maximumf [1] ⟨1, ![n0]⟩ src acc h hφ hacc (ix1 r)
      = Finset.univ.sup fun k : Fin n1 => src (ix2 r k) := by
  refine (Ideal.multiReduction_maximumf_single src acc h hφ hacc (ix1 r)).trans ?_
  have hb : FloatOps.ofBits (F := Ideal) φ acc = (⊥ : EReal) := hbot
  rw [hb, fold_max_bot_eq_sup]
  show (Finset.univ : Finset (Fin n1)).sup (fun k => src (h.lift (ix1 r) k)) = _
  refine Finset.sup_congr rfl fun k _ => ?_
  rw [lift_axis1]

/-- The same for a host `reduce` with a `maximumf` body over the second axis, from an initial value that is `⊥`:
    at row `r` it is the supremum of the row's entries. -/
theorem hostReduce_maximumf_rows {φ : FTy} {u : Shape} {n0 n1 : Nat} (x : FVec Ideal ⟨2, ![n0, n1]⟩ φ)
    (init : FVec Ideal u φ) (h' : (⟨2, ![n0, n1]⟩ : Shape).ReducesTo [1] ⟨1, ![n0]⟩)
    (h : (⟨2, ![n0, n1]⟩ : Shape).Reduces [1] ⟨1, ![n0]⟩) (hu : 0 < u.numel)
    (hbot : init (Shape.Idx.first hu) = ⊥) (r : Fin n0) :
    Host.reduce (FloatOps.maximumf (F := Ideal) (φ := φ)) x init h' hu (ix1 r)
      = Finset.univ.sup fun k : Fin n1 => x (ix2 r k) := by
  refine (Host.reduce_eq_fold_single (FloatOps.maximumf (F := Ideal) (φ := φ)) x init h' h hu (ix1 r)).trans ?_
  rw [hbot]
  show (Finset.univ : Finset (Fin ((⟨2, ![n0, n1]⟩ : Shape).size 1))).fold max (⊥ : EReal) (x ∘ h.lift (ix1 r)) = _
  rw [fold_max_bot_eq_sup]
  show (Finset.univ : Finset (Fin n1)).sup (fun k => x (h.lift (ix1 r) k)) = _
  refine Finset.sup_congr rfl fun k _ => ?_
  rw [lift_axis1]

end Rows

end MaskedMax

end
-- ==== Proof.PayloadMask.lean ====
import proofs.«121821_g137438954343_cont_week2b_1442_4_alg».proof.Proof.Gen.KernelIdeal.Skeleton
import proofs.«121821_g137438954343_cont_week2b_1442_4_alg».proof.Proof.Gen.Kernel.Skeleton
import proofs.«121821_g137438954343_cont_week2b_1442_4_alg».proof.Proof.LibMaskedMax

noncomputable section

namespace Cert.RowMax

open Idealize.ShloMosaic Idealize.ShloMosaic.ValueIdx

variable {F : FTy → Type} [FloatOps F]

/-! ## The payload reads its block only at the columns inside the row

At grid point `i` the block covers the columns `i * 6400 … i * 6400 + 6399` of a row of length `100000`.
The payload first replaces every column at or past `100000` by `-∞` and only then takes the lane maximum, so
two blocks that agree at the columns below `100000` give the same payload, at every float instance: the
masked blocks are equal as vectors, and everything after the mask is a function of the masked block. -/

open Cert.KernelIdeal Cert.KernelIdeal.Gen in
/-- The ideal program's payload as one term: the old output, entrywise maximum with the lane maximum (from
    `-∞`) of the block masked to the columns inside the row, cast to a column. -/
theorem ideal_pay2_eq (i : grid0.Coords) (x : Vec F S128x6400 .f32) (y : Vec F S128x1 .f32) :
    k0_pay2 i x y
      = maximumf (shapeCast S128x1 y shapeCasts_S128x1_S128x1 : FVec F S128x1 .f32)
          (shapeCast S128x1
            (multiReduction .maximumf [1] S128
              (select (cmpi .slt (addi (broadcast S128x6400 (Scalar.muli (BitVec.ofNat 32 (i 0).val) 6400#32))
                    (iota .tc S128x6400 32 [1] iota_S128x6400_d1_w32)) (broadcast S128x6400 100000#32))
                x (broadcast S128x6400 (Scalar.ofBits .f32 0xFF800000#32)) : FVec F S128x6400 .f32)
              0xFF800000#32 reduces_S128x6400_S128 (.inl rfl) rfl : FVec F S128 .f32)
            shapeCasts_S128_S128x1) := rfl

open Cert.Kernel Cert.Kernel.Gen in
/-- The word-level program's payload as one term (the same text). -/
theorem kernel_pay2_eq (i : grid0.Coords) (x : Vec F S128x6400 .f32) (y : Vec F S128x1 .f32) :
    k0_pay2 i x y
      = maximumf (shapeCast S128x1 y shapeCasts_S128x1_S128x1 : FVec F S128x1 .f32)
          (shapeCast S128x1
            (multiReduction .maximumf [1] S128
              (select (cmpi .slt (addi (broadcast S128x6400 (Scalar.muli (BitVec.ofNat 32 (i 0).val) 6400#32))
                    (iota .tc S128x6400 32 [1] iota_S128x6400_d1_w32)) (broadcast S128x6400 100000#32))
                x (broadcast S128x6400 (Scalar.ofBits .f32 0xFF800000#32)) : FVec F S128x6400 .f32)
              0xFF800000#32 reduces_S128x6400_S128 (.inl rfl) rfl : FVec F S128 .f32)
            shapeCasts_S128_S128x1) := rfl

/-- The ideal program's payload depends on its block only at the columns inside the row. -/
theorem ideal_pay2_eq_of_eq_inside (i : Cert.KernelIdeal.grid0.Coords)
    (x x' : Vec F Cert.KernelIdeal.S128x6400 .f32) (y : Vec F Cert.KernelIdeal.S128x1 .f32)
    (h : ∀ j : Cert.KernelIdeal.S128x6400.Idx, (i 0).val * 6400 + (j 1).val < 100000 → x j = x' j) :
    Cert.KernelIdeal.Gen.k0_pay2 i x y = Cert.KernelIdeal.Gen.k0_pay2 i x' y := by
  have hi : (i 0).val < 16 := (i 0).isLt
  rw [ideal_pay2_eq, ideal_pay2_eq,
    MaskedMax.select_colMask_congr _ (i 0).val 6400 100000 (by omega) (by norm_num) x x' _ h]

/-- The word-level program's payload depends on its block only at the columns inside the row. -/
theorem kernel_pay2_eq_of_eq_inside (i : Cert.Kernel.grid0.Coords)
    (x x' : Vec F Cert.Kernel.S128x6400 .f32) (y : Vec F Cert.Kernel.S128x1 .f32)
    (h : ∀ j : Cert.Kernel.S128x6400.Idx, (i 0).val * 6400 + (j 1).val < 100000 → x j = x' j) :
    Cert.Kernel.Gen.k0_pay2 i x y = Cert.Kernel.Gen.k0_pay2 i x' y := by
  have hi : (i 0).val < 16 := (i 0).isLt
  rw [kernel_pay2_eq, kernel_pay2_eq,
    MaskedMax.select_colMask_congr _ (i 0).val 6400 100000 (by omega) (by norm_num) x x' _ h]

end Cert.RowMax

end
-- ==== Proof.FrameWord.lean ====
/-
  The frame of the row-maximum kernel at the word level.

  The same sixteen-block running row maximum as its idealization, read at machine words: the argument's blocks of 6400
  columns are fetched one by one, the last one cut at the array's end with arbitrary words past it; the [128, 1] result
  buffer is reset at the first block and at every block becomes the maximum of what it held and of the masked block's
  row maxima. The mask makes the body's result independent of the arbitrary words, so what the result buffer holds
  after each block is a function `acc` of the argument alone, which is what the body obligation states; the library's
  launch theorem gives the run and the frame.
-/
import proofs.«121821_g137438954343_cont_week2b_1442_4_alg».proof.Proof.Gen.Kernel.Frame
import proofs.«121821_g137438954343_cont_week2b_1442_4_alg».proof.Proof.Gen.Kernel.Skeleton
import proofs.«121821_g137438954343_cont_week2b_1442_4_alg».proof.Proof.PayloadMask
import Idealize.ShloMosaic.Lib.Pipeline.Kit
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The condition of the body's branch: the grid coordinate is 0. -/
abbrev cond0_0 (i : grid0.Coords) : Prop := (Scalar.cmpi .ne (Scalar.extui (Scalar.cmpi .eq (BitVec.ofNat 32 (i 0).val) 0#32)) 0#32) = 1#1
/-- It holds at the first point only — decided over the sixteen points. -/
theorem hcond0_0 : ∀ t : Fin cfg0.N, cond0_0 (grid0.coords t) ↔ t.val = 0 :=
  (by decide +kernel : ∀ t : Fin grid0.N, cond0_0 (grid0.coords t) ↔ t.val = 0)
/-- The sizes of what the fetch at point `t` moves: all 128 rows; 6400 columns, but 4000 at the last point, where
    the array ends; and the point's coordinate is its number. Decided over the sixteen points. -/
theorem xsize0_0 : ∀ t : Fin cfg0.N, win0_0.xsize (grid0.coords t) 0 = 128
    ∧ win0_0.xsize (grid0.coords t) 1 = (if t.val = 15 then 4000 else 6400) ∧ (grid0.coords t 0).val = t.val :=
  (by decide +kernel : ∀ t : Fin grid0.N, win0_0.xsize (grid0.coords t) 0 = 128
    ∧ win0_0.xsize (grid0.coords t) 1 = (if t.val = 15 then 4000 else 6400) ∧ (grid0.coords t 0).val = t.val)

/-- The body at the first point, on any of the windows' staging buffers: the output's buffer is first set to the
    lowest value, then to the maximum of that and the masked block's row maxima; the input's buffer is only read. -/
theorem sound_A (c : Dev nD) (E : Set ℕ) (i : grid0.Coords) (hc : cond0_0 i) (s0 : Fin 2) (s1 : Fin 1)
    (X0 : S128x6400.Idx → Elt F .f32) (X1 : S128x1.Idx → Elt F .f32) (K : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0
                  ∗ owns (c : Thread nD τ) (stage0_1 s1) fullShare (k0_pay2 i X0 (k0_pay1 (F := F)))) -∗ K ⟨⟩))
      ⊢ wp frame (wpE (defs₀ (F := F)) Variants.none c none) E
          (cc0__rowmax_body i (stage0_0 s0) (hstage0_0 s0) (stage0_1 s1) (hstage0_1 s1)) K := by
  have hz : (![0, 0] : Fin 2 → Nat) = fun _ => 0 := funext fun a => by fin_cases a <;> rfl
  fin_cases s0 <;> fin_cases s1
  · -- the input's first staging buffer
    have hr0 : (Memref.whole cc0_stg0_0 : Memref sig .tc _ _ _).view.readAt (Elt F) (Rect.unit (s := S128x6400) ![0, 0] S128x6400.size
        inb_S128x6400_S128x6400_0_0).toLoadRect = id := funext (Memref.readAt_unit_zero (Elt F) cc0_stg0_0 hz _)
    have hr1 : (Memref.whole cc0_stg1_0 : Memref sig .tc _ _ _).view.readAt (Elt F) (Rect.unit (s := S128x1) ![0, 0] S128x1.size
        inb_S128x1_S128x1_0_0).toLoadRect = id := funext (Memref.readAt_unit_zero (Elt F) cc0_stg1_0 hz _)
    have hw1 : ∀ f w, (((Memref.whole cc0_stg1_0).access (Rect.unit (s := S128x1) ![0, 0] S128x1.size inb_S128x1_S128x1_0_0)) :
        View sig .tc _ _ _).write (Elt F) f w Finset.univ = w := Memref.write_access_unit_zero_univ (Elt F) cc0_stg1_0 hz _
    simp only [owns_whole_eq, cc0__rowmax_body_eq_skeleton]; unfold cc0__rowmax_body_skel
    simp only [Prog.lift, Prog.bind_op, Prog.bind_ret]
    rw [dif_pos hc]
    iintro ⟨⟨⟨%f0, %hf0, H0⟩, ⟨%f1, %hf1, H1⟩⟩, Hk⟩
    sl_step
    sl_step
    rw [hw1]
    sl_steps
    iapply Hk
    rw [hr0, hr1, hw1]
    isplitl [H0]
    · iexists f0; isplitr; · ipureintro; exact hf0
      iexact H0
    · iexists (k0_pay2 i f0 (k0_pay1 (F := F))); isplitr; · ipureintro; rw [hf0]
      iexact H1
  · -- the input's second staging buffer
    have hr0 : (Memref.whole cc0_stg0_1 : Memref sig .tc _ _ _).view.readAt (Elt F) (Rect.unit (s := S128x6400) ![0, 0] S128x6400.size
        inb_S128x6400_S128x6400_0_0).toLoadRect = id := funext (Memref.readAt_unit_zero (Elt F) cc0_stg0_1 hz _)
    have hr1 : (Memref.whole cc0_stg1_0 : Memref sig .tc _ _ _).view.readAt (Elt F) (Rect.unit (s := S128x1) ![0, 0] S128x1.size
        inb_S128x1_S128x1_0_0).toLoadRect = id := funext (Memref.readAt_unit_zero (Elt F) cc0_stg1_0 hz _)
    have hw1 : ∀ f w, (((Memref.whole cc0_stg1_0).access (Rect.unit (s := S128x1) ![0, 0] S128x1.size inb_S128x1_S128x1_0_0)) :
        View sig .tc _ _ _).write (Elt F) f w Finset.univ = w := Memref.write_access_unit_zero_univ (Elt F) cc0_stg1_0 hz _
    simp only [owns_whole_eq, cc0__rowmax_body_eq_skeleton]; unfold cc0__rowmax_body_skel
    simp only [Prog.lift, Prog.bind_op, Prog.bind_ret]
    rw [dif_pos hc]
    iintro ⟨⟨⟨%f0, %hf0, H0⟩, ⟨%f1, %hf1, H1⟩⟩, Hk⟩
    sl_step
    sl_step
    rw [hw1]
    sl_steps
    iapply Hk
    rw [hr0, hr1, hw1]
    isplitl [H0]
    · iexists f0; isplitr; · ipureintro; exact hf0
      iexact H0
    · iexists (k0_pay2 i f0 (k0_pay1 (F := F))); isplitr; · ipureintro; rw [hf0]
      iexact H1

/-- The body at a later point: the output's buffer goes from `X1` to the maximum of `X1` and the masked block's row
    maxima; the input's buffer is only read. -/
theorem sound_B (c : Dev nD) (E : Set ℕ) (i : grid0.Coords) (hc : ¬cond0_0 i) (s0 : Fin 2) (s1 : Fin 1)
    (X0 : S128x6400.Idx → Elt F .f32) (X1 : S128x1.Idx → Elt F .f32) (K : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0
                  ∗ owns (c : Thread nD τ) (stage0_1 s1) fullShare (k0_pay2 i X0 X1)) -∗ K ⟨⟩))
      ⊢ wp frame (wpE (defs₀ (F := F)) Variants.none c none) E
          (cc0__rowmax_body i (stage0_0 s0) (hstage0_0 s0) (stage0_1 s1) (hstage0_1 s1)) K := by
  have hz : (![0, 0] : Fin 2 → Nat) = fun _ => 0 := funext fun a => by fin_cases a <;> rfl
  fin_cases s0 <;> fin_cases s1
  · -- the input's first staging buffer
    have hr0 : (Memref.whole cc0_stg0_0 : Memref sig .tc _ _ _).view.readAt (Elt F) (Rect.unit (s := S128x6400) ![0, 0] S128x6400.size
        inb_S128x6400_S128x6400_0_0).toLoadRect = id := funext (Memref.readAt_unit_zero (Elt F) cc0_stg0_0 hz _)
    have hr1 : (Memref.whole cc0_stg1_0 : Memref sig .tc _ _ _).view.readAt (Elt F) (Rect.unit (s := S128x1) ![0, 0] S128x1.size
        inb_S128x1_S128x1_0_0).toLoadRect = id := funext (Memref.readAt_unit_zero (Elt F) cc0_stg1_0 hz _)
    have hw1 : ∀ f w, (((Memref.whole cc0_stg1_0).access (Rect.unit (s := S128x1) ![0, 0] S128x1.size inb_S128x1_S128x1_0_0)) :
        View sig .tc _ _ _).write (Elt F) f w Finset.univ = w := Memref.write_access_unit_zero_univ (Elt F) cc0_stg1_0 hz _
    simp only [owns_whole_eq, cc0__rowmax_body_eq_skeleton]; unfold cc0__rowmax_body_skel
    simp only [Prog.lift, Prog.bind_op, Prog.bind_ret]
    rw [dif_neg hc]
    iintro ⟨⟨⟨%f0, %hf0, H0⟩, ⟨%f1, %hf1, H1⟩⟩, Hk⟩
    sl_steps
    iapply Hk
    rw [hr0, hr1, hw1]
    isplitl [H0]
    · iexists f0; isplitr; · ipureintro; exact hf0
      iexact H0
    · iexists (k0_pay2 i f0 f1); isplitr; · ipureintro; rw [hf0, hf1]
      iexact H1
  · -- the input's second staging buffer
    have hr0 : (Memref.whole cc0_stg0_1 : Memref sig .tc _ _ _).view.readAt (Elt F) (Rect.unit (s := S128x6400) ![0, 0] S128x6400.size
        inb_S128x6400_S128x6400_0_0).toLoadRect = id := funext (Memref.readAt_unit_zero (Elt F) cc0_stg0_1 hz _)
    have hr1 : (Memref.whole cc0_stg1_0 : Memref sig .tc _ _ _).view.readAt (Elt F) (Rect.unit (s := S128x1) ![0, 0] S128x1.size
        inb_S128x1_S128x1_0_0).toLoadRect = id := funext (Memref.readAt_unit_zero (Elt F) cc0_stg1_0 hz _)
    have hw1 : ∀ f w, (((Memref.whole cc0_stg1_0).access (Rect.unit (s := S128x1) ![0, 0] S128x1.size inb_S128x1_S128x1_0_0)) :
        View sig .tc _ _ _).write (Elt F) f w Finset.univ = w := Memref.write_access_unit_zero_univ (Elt F) cc0_stg1_0 hz _
    simp only [owns_whole_eq, cc0__rowmax_body_eq_skeleton]; unfold cc0__rowmax_body_skel
    simp only [Prog.lift, Prog.bind_op, Prog.bind_ret]
    rw [dif_neg hc]
    iintro ⟨⟨⟨%f0, %hf0, H0⟩, ⟨%f1, %hf1, H1⟩⟩, Hk⟩
    sl_steps
    iapply Hk
    rw [hr0, hr1, hw1]
    isplitl [H0]
    · iexists f0; isplitr; · ipureintro; exact hf0
      iexact H0
    · iexists (k0_pay2 i f0 f1); isplitr; · ipureintro; rw [hf0, hf1]
      iexact H1

variable (m : (ℓ : Loc nD τ sig) → Buf (Elt F) ℓ) (ρ : Dev nD → PrngReg)

/-- A word to fill a block out with past the array's end: nothing reads it. -/
def zfill : S128x6400.Idx → Elt F .f32 := fun _ => Scalar.ofBits .f32 0#32

/-- The input's staging buffer after the fetch at point `t`: the block's columns inside the array, `d` past its end. -/
def xin (c : Dev nD) (t : Fin cfg0.N) (d : S128x6400.Idx → Elt F .f32) : S128x6400.Idx → Elt F .f32 :=
  win0_0.fill (grid0.coords t) d (iblk m c 0 t)

/-- The running row maximum: what the output's staging buffer holds after the body at point `n`. -/
def acc (c : Dev nD) : (n : ℕ) → n < cfg0.N → Vec F S128x1 .f32
  | 0, hn => k0_pay2 (grid0.coords ⟨0, hn⟩) (xin m c ⟨0, hn⟩ zfill) (k0_pay1 (F := F))
  | n + 1, hn => k0_pay2 (grid0.coords ⟨n + 1, hn⟩) (xin m c ⟨n + 1, hn⟩ zfill) (acc c n (Nat.lt_of_succ_lt hn))

theorem acc_zero (c : Dev nD) (t : Fin cfg0.N) (h0 : t.val = 0) :
    acc m c t.val t.isLt = k0_pay2 (grid0.coords t) (xin m c t zfill) (k0_pay1 (F := F)) := by
  obtain ⟨n, hn⟩ := t
  cases n with
  | zero => rfl
  | succ n => exact absurd h0 (Nat.succ_ne_zero n)

theorem acc_succ (c : Dev nD) (t : Fin cfg0.N) (h0 : ¬t.val = 0) :
    acc m c t.val t.isLt = k0_pay2 (grid0.coords t) (xin m c t zfill)
      (acc m c (t.val - 1) (Nat.lt_of_le_of_lt (Nat.sub_le _ _) t.isLt)) := by
  obtain ⟨n, hn⟩ := t
  cases n with
  | zero => exact absurd rfl h0
  | succ n => rfl

def dats (_ : Fin 1) (c : Dev nD) : Dat τ (Elt F) Unit ℕ (UR sig nD τ) ℕ cfg0 c where
  A w := V m c (Pipeline.arrRef spec0 w)
  after w t := match w with
    | ⟨0, _⟩ => xin m c t zfill
    | ⟨1, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = xin m c t zfill := by dsimp only [dats]
theorem after0_1 (c : Dev nD) (t : Fin cfg0.N) : (dats m 0 c).after 1 t = acc m c t.val t.isLt := by dsimp only [dats]

theorem before0_0 (c : Dev nD) (t : Fin cfg0.N) (d) : (dats m 0 c).before 0 t d = xin m c t d := by
  unfold Dat.before; rw [if_pos (fetch0_0 t)]; rfl

theorem before0_1_zero (c : Dev nD) (t : Fin cfg0.N) (h0 : t.val = 0) (d) : (dats m 0 c).before 1 t d = d :=
  Dat.before_out_reset _ 1 rfl t (.inl h0) d

theorem before0_1_succ (c : Dev nD) (t : Fin cfg0.N) (h0 : ¬t.val = 0) (d) :
    (dats m 0 c).before 1 t d = acc m c (t.val - 1) (Nat.lt_of_le_of_lt (Nat.sub_le _ _) t.isLt) := by
  have hN : t.val < 16 := lt_of_lt_of_eq t.isLt (show cfg0.N = 16 from N_0)
  rw [Dat.before_out_kept _ 1 rfl t h0 (Bool.eq_false_iff.mpr fun h => by have := (flush0_1 _).mp h; dsimp only at this; omega)
    (fun _ => rfl) (fun _ _ => rfl)]
  dsimp only [dats]

/-- A column inside the array is one the fetch moves. -/
theorem moved_of_lt (t : Fin cfg0.N) (j : S128x6400.Idx) (h : (grid0.coords t 0).val * 6400 + (j 1).val < 100000) :
    win0_0.moved (grid0.coords t) j = true := by
  obtain ⟨h0, h1, h2⟩ := xsize0_0 t
  have hN : t.val < 16 := lt_of_lt_of_eq t.isLt (show cfg0.N = 16 from N_0)
  have hj0 : (j 0).val < 128 := (j 0).isLt
  have hj1 : (j 1).val < 6400 := (j 1).isLt
  rw [win0_0.moved_iff]
  intro a
  match a with
  | ⟨0, _⟩ => show (j 0).val < win0_0.xsize (grid0.coords t) 0; rw [h0]; exact hj0
  | ⟨1, _⟩ =>
    show (j 1).val < win0_0.xsize (grid0.coords t) 1
    rw [h1]
    rw [h2] at h
    by_cases hl : t.val = 15
    · rw [if_pos hl]; omega
    · rw [if_neg hl]; exact hj1

/-- On the columns inside the array the fetched buffer does not depend on what it held before. -/
theorem xin_congr (c : Dev nD) (t : Fin cfg0.N) (d d' : S128x6400.Idx → Elt F .f32) (j : S128x6400.Idx)
    (h : (grid0.coords t 0).val * 6400 + (j 1).val < 100000) : xin m c t d j = xin m c t d' j := by
  have hm := moved_of_lt t j h
  unfold xin Window.fill; rw [dif_pos hm, dif_pos hm]

/-- So neither does the body's result: the mask replaces every column past the array's end. -/
theorem pay2_xin (c : Dev nD) (t : Fin cfg0.N) (d d' : S128x6400.Idx → Elt F .f32) (y : Vec F S128x1 .f32) :
    k0_pay2 (grid0.coords t) (xin m c t d) y = k0_pay2 (grid0.coords t) (xin m c t d') y :=
  Cert.RowMax.kernel_pay2_eq_of_eq_inside (grid0.coords t) _ _ y fun j h => xin_congr m c t d d' j h

/-- The body obligation at every point: the input's buffer arrives just fetched (its block, and any words past the
    array's end), the output's holding anything at the first point and the running maximum afterwards; the body
    leaves the input's as it was and the output's at the next running maximum. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before0_0 m c t d0]
  have hx : win0_0.cut (grid0.coords t) (xin m c t zfill) = iblk m c 0 t := win0_0.cut_fill _ _ _
  by_cases h0 : t.val = 0
  · rw [before0_1_zero m c t h0 d1]
    iapply (sound_A (F := F) c Set.univ (grid0.coords t) ((hcond0_0 t).mpr h0) (cfg0.slots t 0) (cfg0.slots t 1) (xin m c t d0) d1 _)
    isplitl [H0 H1]
    · isplitl [H0]
      · iexact H0
      · iexact H1
    iintro ⟨H0, H1⟩
    isplitl [HΦ]; · iexact HΦ
    isplitl [Ho]; · iexact Ho
    isplitl [H0]
    · iexists d0
      rw [after0_0]
      change _ ⊢ owns (c : Thread nD τ) (stage0_0 (cfg0.slots t 0)) fullShare (win0_0.fill (grid0.coords t) d0 (win0_0.cut (grid0.coords t) (xin m c t zfill)))
      rw [hx]; unfold xin; exact .rfl
    · rw [after0_1, acc_zero m c t h0, pay2_xin m c t zfill d0]; iexact H1
  · rw [before0_1_succ m c t h0 d1]
    iapply (sound_B (F := F) c Set.univ (grid0.coords t) (fun h => h0 ((hcond0_0 t).mp h)) (cfg0.slots t 0) (cfg0.slots t 1) (xin m c t d0) _ _)
    isplitl [H0 H1]
    · isplitl [H0]
      · iexact H0
      · iexact H1
    iintro ⟨H0, H1⟩
    isplitl [HΦ]; · iexact HΦ
    isplitl [Ho]; · iexact Ho
    isplitl [H0]
    · iexists d0
      rw [after0_0]
      change _ ⊢ owns (c : Thread nD τ) (stage0_0 (cfg0.slots t 0)) fullShare (win0_0.fill (grid0.coords t) d0 (win0_0.cut (grid0.coords t) (xin m c t zfill)))
      rw [hx]; unfold xin; exact .rfl
    · rw [after0_1, acc_succ m c t h0, pay2_xin m c t zfill d0]; iexact H1

set_option backward.isDefEq.respectTransparency.types false in
/-- Every weakly fair execution of the program ends, faulting nowhere, with the windows' arrays at what the proof
    data computes and every other buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and leaves its argument array as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body
end
-- ==== Proof.FrameIdeal.lean ====
/-
  The frame of the row-maximum kernel, and what its result holds.

  The argument X has 128 rows and 100000 columns. The kernel reads it in sixteen blocks of 6400 columns; the last block
  overhangs the array by 2400 columns, and what the staging buffer holds there is not named by anything: the fetch leaves
  arbitrary words past the array's end. At the first block the [128, 1] result buffer is set to the lowest value; at
  every block it becomes, row by row, the maximum of what it held and of the block's columns, every column past the
  array's end first replaced by the lowest value. The buffer is written back once, after the last block, and the
  program casts the [128, 1] array to [128].

  Because of the mask the body's result does not depend on the arbitrary words (the payload is the same function of any
  two buffers that agree on the columns inside the array), so the running maximum `acc` is a function of the argument
  alone: `acc 0` is the payload of block 0 and the lowest value, `acc (n + 1)` the payload of block n + 1 and `acc n`.
  The body obligation says exactly this at every point (the input's buffer arrives just fetched, the result's holds
  anything at the first point and `acc (t - 1)` afterwards, since it is never written back in between); the library's
  launch theorem then gives the run, the frame, and the result array as `acc 15`.
-/
import proofs.«121821_g137438954343_cont_week2b_1442_4_alg».proof.Proof.Gen.KernelIdeal.Frame
import proofs.«121821_g137438954343_cont_week2b_1442_4_alg».proof.Proof.Gen.KernelIdeal.Skeleton
import proofs.«121821_g137438954343_cont_week2b_1442_4_alg».proof.Proof.PayloadMask
import Idealize.ShloMosaic.Lib.Pipeline.Kit
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The condition of the body's branch: the grid coordinate is 0. -/
abbrev cond0_0 (i : grid0.Coords) : Prop := (Scalar.cmpi .ne (Scalar.extui (Scalar.cmpi .eq (BitVec.ofNat 32 (i 0).val) 0#32)) 0#32) = 1#1
/-- It holds at the first point only — decided over the sixteen points. -/
theorem hcond0_0 : ∀ t : Fin cfg0.N, cond0_0 (grid0.coords t) ↔ t.val = 0 :=
  (by decide +kernel : ∀ t : Fin grid0.N, cond0_0 (grid0.coords t) ↔ t.val = 0)
/-- The sizes of what the fetch at point `t` moves: all 128 rows; 6400 columns, but 4000 at the last point, where
    the array ends; and the point's coordinate is its number. Decided over the sixteen points. -/
theorem xsize0_0 : ∀ t : Fin cfg0.N, win0_0.xsize (grid0.coords t) 0 = 128
    ∧ win0_0.xsize (grid0.coords t) 1 = (if t.val = 15 then 4000 else 6400) ∧ (grid0.coords t 0).val = t.val :=
  (by decide +kernel : ∀ t : Fin grid0.N, win0_0.xsize (grid0.coords t) 0 = 128
    ∧ win0_0.xsize (grid0.coords t) 1 = (if t.val = 15 then 4000 else 6400) ∧ (grid0.coords t 0).val = t.val)

/-- The body at the first point, on any of the windows' staging buffers: the output's buffer is first set to the
    lowest value, then to the maximum of that and the masked block's row maxima; the input's buffer is only read. -/
theorem sound_A (c : Dev nD) (E : Set ℕ) (i : grid0.Coords) (hc : cond0_0 i) (s0 : Fin 2) (s1 : Fin 1)
    (X0 : S128x6400.Idx → Elt F .f32) (X1 : S128x1.Idx → Elt F .f32) (K : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0
                  ∗ owns (c : Thread nD τ) (stage0_1 s1) fullShare (k0_pay2 i X0 (k0_pay1 (F := F)))) -∗ K ⟨⟩))
      ⊢ wp frame (wpE (defs₀ (F := F)) Variants.none c none) E
          (cc0__rowmax_body i (stage0_0 s0) (hstage0_0 s0) (stage0_1 s1) (hstage0_1 s1)) K := by
  have hz : (![0, 0] : Fin 2 → Nat) = fun _ => 0 := funext fun a => by fin_cases a <;> rfl
  fin_cases s0 <;> fin_cases s1
  · -- the input's first staging buffer
    have hr0 : (Memref.whole cc0_stg0_0 : Memref sig .tc _ _ _).view.readAt (Elt F) (Rect.unit (s := S128x6400) ![0, 0] S128x6400.size
        inb_S128x6400_S128x6400_0_0).toLoadRect = id := funext (Memref.readAt_unit_zero (Elt F) cc0_stg0_0 hz _)
    have hr1 : (Memref.whole cc0_stg1_0 : Memref sig .tc _ _ _).view.readAt (Elt F) (Rect.unit (s := S128x1) ![0, 0] S128x1.size
        inb_S128x1_S128x1_0_0).toLoadRect = id := funext (Memref.readAt_unit_zero (Elt F) cc0_stg1_0 hz _)
    have hw1 : ∀ f w, (((Memref.whole cc0_stg1_0).access (Rect.unit (s := S128x1) ![0, 0] S128x1.size inb_S128x1_S128x1_0_0)) :
        View sig .tc _ _ _).write (Elt F) f w Finset.univ = w := Memref.write_access_unit_zero_univ (Elt F) cc0_stg1_0 hz _
    simp only [owns_whole_eq, cc0__rowmax_body_eq_skeleton]; unfold cc0__rowmax_body_skel
    simp only [Prog.lift, Prog.bind_op, Prog.bind_ret]
    rw [dif_pos hc]
    iintro ⟨⟨⟨%f0, %hf0, H0⟩, ⟨%f1, %hf1, H1⟩⟩, Hk⟩
    sl_step
    sl_step
    rw [hw1]
    sl_steps
    iapply Hk
    rw [hr0, hr1, hw1]
    isplitl [H0]
    · iexists f0; isplitr; · ipureintro; exact hf0
      iexact H0
    · iexists (k0_pay2 i f0 (k0_pay1 (F := F))); isplitr; · ipureintro; rw [hf0]
      iexact H1
  · -- the input's second staging buffer
    have hr0 : (Memref.whole cc0_stg0_1 : Memref sig .tc _ _ _).view.readAt (Elt F) (Rect.unit (s := S128x6400) ![0, 0] S128x6400.size
        inb_S128x6400_S128x6400_0_0).toLoadRect = id := funext (Memref.readAt_unit_zero (Elt F) cc0_stg0_1 hz _)
    have hr1 : (Memref.whole cc0_stg1_0 : Memref sig .tc _ _ _).view.readAt (Elt F) (Rect.unit (s := S128x1) ![0, 0] S128x1.size
        inb_S128x1_S128x1_0_0).toLoadRect = id := funext (Memref.readAt_unit_zero (Elt F) cc0_stg1_0 hz _)
    have hw1 : ∀ f w, (((Memref.whole cc0_stg1_0).access (Rect.unit (s := S128x1) ![0, 0] S128x1.size inb_S128x1_S128x1_0_0)) :
        View sig .tc _ _ _).write (Elt F) f w Finset.univ = w := Memref.write_access_unit_zero_univ (Elt F) cc0_stg1_0 hz _
    simp only [owns_whole_eq, cc0__rowmax_body_eq_skeleton]; unfold cc0__rowmax_body_skel
    simp only [Prog.lift, Prog.bind_op, Prog.bind_ret]
    rw [dif_pos hc]
    iintro ⟨⟨⟨%f0, %hf0, H0⟩, ⟨%f1, %hf1, H1⟩⟩, Hk⟩
    sl_step
    sl_step
    rw [hw1]
    sl_steps
    iapply Hk
    rw [hr0, hr1, hw1]
    isplitl [H0]
    · iexists f0; isplitr; · ipureintro; exact hf0
      iexact H0
    · iexists (k0_pay2 i f0 (k0_pay1 (F := F))); isplitr; · ipureintro; rw [hf0]
      iexact H1

/-- The body at a later point: the output's buffer goes from `X1` to the maximum of `X1` and the masked block's row
    maxima; the input's buffer is only read. -/
theorem sound_B (c : Dev nD) (E : Set ℕ) (i : grid0.Coords) (hc : ¬cond0_0 i) (s0 : Fin 2) (s1 : Fin 1)
    (X0 : S128x6400.Idx → Elt F .f32) (X1 : S128x1.Idx → Elt F .f32) (K : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0
                  ∗ owns (c : Thread nD τ) (stage0_1 s1) fullShare (k0_pay2 i X0 X1)) -∗ K ⟨⟩))
      ⊢ wp frame (wpE (defs₀ (F := F)) Variants.none c none) E
          (cc0__rowmax_body i (stage0_0 s0) (hstage0_0 s0) (stage0_1 s1) (hstage0_1 s1)) K := by
  have hz : (![0, 0] : Fin 2 → Nat) = fun _ => 0 := funext fun a => by fin_cases a <;> rfl
  fin_cases s0 <;> fin_cases s1
  · -- the input's first staging buffer
    have hr0 : (Memref.whole cc0_stg0_0 : Memref sig .tc _ _ _).view.readAt (Elt F) (Rect.unit (s := S128x6400) ![0, 0] S128x6400.size
        inb_S128x6400_S128x6400_0_0).toLoadRect = id := funext (Memref.readAt_unit_zero (Elt F) cc0_stg0_0 hz _)
    have hr1 : (Memref.whole cc0_stg1_0 : Memref sig .tc _ _ _).view.readAt (Elt F) (Rect.unit (s := S128x1) ![0, 0] S128x1.size
        inb_S128x1_S128x1_0_0).toLoadRect = id := funext (Memref.readAt_unit_zero (Elt F) cc0_stg1_0 hz _)
    have hw1 : ∀ f w, (((Memref.whole cc0_stg1_0).access (Rect.unit (s := S128x1) ![0, 0] S128x1.size inb_S128x1_S128x1_0_0)) :
        View sig .tc _ _ _).write (Elt F) f w Finset.univ = w := Memref.write_access_unit_zero_univ (Elt F) cc0_stg1_0 hz _
    simp only [owns_whole_eq, cc0__rowmax_body_eq_skeleton]; unfold cc0__rowmax_body_skel
    simp only [Prog.lift, Prog.bind_op, Prog.bind_ret]
    rw [dif_neg hc]
    iintro ⟨⟨⟨%f0, %hf0, H0⟩, ⟨%f1, %hf1, H1⟩⟩, Hk⟩
    sl_steps
    iapply Hk
    rw [hr0, hr1, hw1]
    isplitl [H0]
    · iexists f0; isplitr; · ipureintro; exact hf0
      iexact H0
    · iexists (k0_pay2 i f0 f1); isplitr; · ipureintro; rw [hf0, hf1]
      iexact H1
  · -- the input's second staging buffer
    have hr0 : (Memref.whole cc0_stg0_1 : Memref sig .tc _ _ _).view.readAt (Elt F) (Rect.unit (s := S128x6400) ![0, 0] S128x6400.size
        inb_S128x6400_S128x6400_0_0).toLoadRect = id := funext (Memref.readAt_unit_zero (Elt F) cc0_stg0_1 hz _)
    have hr1 : (Memref.whole cc0_stg1_0 : Memref sig .tc _ _ _).view.readAt (Elt F) (Rect.unit (s := S128x1) ![0, 0] S128x1.size
        inb_S128x1_S128x1_0_0).toLoadRect = id := funext (Memref.readAt_unit_zero (Elt F) cc0_stg1_0 hz _)
    have hw1 : ∀ f w, (((Memref.whole cc0_stg1_0).access (Rect.unit (s := S128x1) ![0, 0] S128x1.size inb_S128x1_S128x1_0_0)) :
        View sig .tc _ _ _).write (Elt F) f w Finset.univ = w := Memref.write_access_unit_zero_univ (Elt F) cc0_stg1_0 hz _
    simp only [owns_whole_eq, cc0__rowmax_body_eq_skeleton]; unfold cc0__rowmax_body_skel
    simp only [Prog.lift, Prog.bind_op, Prog.bind_ret]
    rw [dif_neg hc]
    iintro ⟨⟨⟨%f0, %hf0, H0⟩, ⟨%f1, %hf1, H1⟩⟩, Hk⟩
    sl_steps
    iapply Hk
    rw [hr0, hr1, hw1]
    isplitl [H0]
    · iexists f0; isplitr; · ipureintro; exact hf0
      iexact H0
    · iexists (k0_pay2 i f0 f1); isplitr; · ipureintro; rw [hf0, hf1]
      iexact H1

variable (m : (ℓ : Loc nD τ sig) → Buf (Elt F) ℓ) (ρ : Dev nD → PrngReg)

/-- A word to fill a block out with past the array's end: nothing reads it. -/
def zfill : S128x6400.Idx → Elt F .f32 := fun _ => Scalar.ofBits .f32 0#32

/-- The input's staging buffer after the fetch at point `t`: the block's columns inside the array, `d` past its end. -/
def xin (c : Dev nD) (t : Fin cfg0.N) (d : S128x6400.Idx → Elt F .f32) : S128x6400.Idx → Elt F .f32 :=
  win0_0.fill (grid0.coords t) d (iblk m c 0 t)

/-- The running row maximum: what the output's staging buffer holds after the body at point `n`. -/
def acc (c : Dev nD) : (n : ℕ) → n < cfg0.N → Vec F S128x1 .f32
  | 0, hn => k0_pay2 (grid0.coords ⟨0, hn⟩) (xin m c ⟨0, hn⟩ zfill) (k0_pay1 (F := F))
  | n + 1, hn => k0_pay2 (grid0.coords ⟨n + 1, hn⟩) (xin m c ⟨n + 1, hn⟩ zfill) (acc c n (Nat.lt_of_succ_lt hn))

theorem acc_zero (c : Dev nD) (t : Fin cfg0.N) (h0 : t.val = 0) :
    acc m c t.val t.isLt = k0_pay2 (grid0.coords t) (xin m c t zfill) (k0_pay1 (F := F)) := by
  obtain ⟨n, hn⟩ := t
  cases n with
  | zero => rfl
  | succ n => exact absurd h0 (Nat.succ_ne_zero n)

theorem acc_succ (c : Dev nD) (t : Fin cfg0.N) (h0 : ¬t.val = 0) :
    acc m c t.val t.isLt = k0_pay2 (grid0.coords t) (xin m c t zfill)
      (acc m c (t.val - 1) (Nat.lt_of_le_of_lt (Nat.sub_le _ _) t.isLt)) := by
  obtain ⟨n, hn⟩ := t
  cases n with
  | zero => exact absurd rfl h0
  | succ n => rfl

def dats (_ : Fin 1) (c : Dev nD) : Dat τ (Elt F) Unit ℕ (UR sig nD τ) ℕ cfg0 c where
  A w := V m c (Pipeline.arrRef spec0 w)
  after w t := match w with
    | ⟨0, _⟩ => xin m c t zfill
    | ⟨1, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = xin m c t zfill := by dsimp only [dats]
theorem after0_1 (c : Dev nD) (t : Fin cfg0.N) : (dats m 0 c).after 1 t = acc m c t.val t.isLt := by dsimp only [dats]

theorem before0_0 (c : Dev nD) (t : Fin cfg0.N) (d) : (dats m 0 c).before 0 t d = xin m c t d := by
  unfold Dat.before; rw [if_pos (fetch0_0 t)]; rfl

theorem before0_1_zero (c : Dev nD) (t : Fin cfg0.N) (h0 : t.val = 0) (d) : (dats m 0 c).before 1 t d = d :=
  Dat.before_out_reset _ 1 rfl t (.inl h0) d

theorem before0_1_succ (c : Dev nD) (t : Fin cfg0.N) (h0 : ¬t.val = 0) (d) :
    (dats m 0 c).before 1 t d = acc m c (t.val - 1) (Nat.lt_of_le_of_lt (Nat.sub_le _ _) t.isLt) := by
  have hN : t.val < 16 := lt_of_lt_of_eq t.isLt (show cfg0.N = 16 from N_0)
  rw [Dat.before_out_kept _ 1 rfl t h0 (Bool.eq_false_iff.mpr fun h => by have := (flush0_1 _).mp h; dsimp only at this; omega)
    (fun _ => rfl) (fun _ _ => rfl)]
  dsimp only [dats]

/-- A column inside the array is one the fetch moves. -/
theorem moved_of_lt (t : Fin cfg0.N) (j : S128x6400.Idx) (h : (grid0.coords t 0).val * 6400 + (j 1).val < 100000) :
    win0_0.moved (grid0.coords t) j = true := by
  obtain ⟨h0, h1, h2⟩ := xsize0_0 t
  have hN : t.val < 16 := lt_of_lt_of_eq t.isLt (show cfg0.N = 16 from N_0)
  have hj0 : (j 0).val < 128 := (j 0).isLt
  have hj1 : (j 1).val < 6400 := (j 1).isLt
  rw [win0_0.moved_iff]
  intro a
  match a with
  | ⟨0, _⟩ => show (j 0).val < win0_0.xsize (grid0.coords t) 0; rw [h0]; exact hj0
  | ⟨1, _⟩ =>
    show (j 1).val < win0_0.xsize (grid0.coords t) 1
    rw [h1]
    rw [h2] at h
    by_cases hl : t.val = 15
    · rw [if_pos hl]; omega
    · rw [if_neg hl]; exact hj1

/-- On the columns inside the array the fetched buffer does not depend on what it held before. -/
theorem xin_congr (c : Dev nD) (t : Fin cfg0.N) (d d' : S128x6400.Idx → Elt F .f32) (j : S128x6400.Idx)
    (h : (grid0.coords t 0).val * 6400 + (j 1).val < 100000) : xin m c t d j = xin m c t d' j := by
  have hm := moved_of_lt t j h
  unfold xin Window.fill; rw [dif_pos hm, dif_pos hm]

/-- So neither does the body's result: the mask replaces every column past the array's end. -/
theorem pay2_xin (c : Dev nD) (t : Fin cfg0.N) (d d' : S128x6400.Idx → Elt F .f32) (y : Vec F S128x1 .f32) :
    k0_pay2 (grid0.coords t) (xin m c t d) y = k0_pay2 (grid0.coords t) (xin m c t d') y :=
  Cert.RowMax.ideal_pay2_eq_of_eq_inside (grid0.coords t) _ _ y fun j h => xin_congr m c t d d' j h

/-- The body obligation at every point: the input's buffer arrives just fetched (its block, and any words past the
    array's end), the output's holding anything at the first point and the running maximum afterwards; the body
    leaves the input's as it was and the output's at the next running maximum. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before0_0 m c t d0]
  have hx : win0_0.cut (grid0.coords t) (xin m c t zfill) = iblk m c 0 t := win0_0.cut_fill _ _ _
  by_cases h0 : t.val = 0
  · rw [before0_1_zero m c t h0 d1]
    iapply (sound_A (F := F) c Set.univ (grid0.coords t) ((hcond0_0 t).mpr h0) (cfg0.slots t 0) (cfg0.slots t 1) (xin m c t d0) d1 _)
    isplitl [H0 H1]
    · isplitl [H0]
      · iexact H0
      · iexact H1
    iintro ⟨H0, H1⟩
    isplitl [HΦ]; · iexact HΦ
    isplitl [Ho]; · iexact Ho
    isplitl [H0]
    · iexists d0
      rw [after0_0]
      change _ ⊢ owns (c : Thread nD τ) (stage0_0 (cfg0.slots t 0)) fullShare (win0_0.fill (grid0.coords t) d0 (win0_0.cut (grid0.coords t) (xin m c t zfill)))
      rw [hx]; unfold xin; exact .rfl
    · rw [after0_1, acc_zero m c t h0, pay2_xin m c t zfill d0]; iexact H1
  · rw [before0_1_succ m c t h0 d1]
    iapply (sound_B (F := F) c Set.univ (grid0.coords t) (fun h => h0 ((hcond0_0 t).mp h)) (cfg0.slots t 0) (cfg0.slots t 1) (xin m c t d0) _ _)
    isplitl [H0 H1]
    · isplitl [H0]
      · iexact H0
      · iexact H1
    iintro ⟨H0, H1⟩
    isplitl [HΦ]; · iexact HΦ
    isplitl [Ho]; · iexact Ho
    isplitl [H0]
    · iexists d0
      rw [after0_0]
      change _ ⊢ owns (c : Thread nD τ) (stage0_0 (cfg0.slots t 0)) fullShare (win0_0.fill (grid0.coords t) d0 (win0_0.cut (grid0.coords t) (xin m c t zfill)))
      rw [hx]; unfold xin; exact .rfl
    · rw [after0_1, acc_succ m c t h0, pay2_xin m c t zfill d0]; iexact H1

set_option backward.isDefEq.respectTransparency.types false in
/-- Every weakly fair execution of the program ends, faulting nowhere, with the windows' arrays at what the proof
    data computes and every other buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and leaves its argument array as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-! ## The result array -/

theorem h15 : 15 < cfg0.N := by rw [show cfg0.N = 16 from N_0]; decide

/-- The output's block is the whole [128, 1] array at every point: its block index is the origin. -/
theorem index0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The one write-back, at the last point, writes the last running maximum. -/
theorem flushed1_eq (c : Dev nD) (t : Fin cfg0.N) (hf : (cfg0.win 1).flush t = true) :
    (dats m 0 c).flushed 1 t = ((cfg0.win 1).blk t).view.read (Elt F) (acc m c 15 h15) := by
  have hN : t.val < 16 := lt_of_lt_of_eq t.isLt (show cfg0.N = 16 from N_0)
  have ht : t.val = 15 := by have := (flush0_1 t).mp hf; omega
  show (cfg0.win 1).cut (grid0.coords t) ((dats m 0 c).after 1 t) = _
  rw [after0_1]
  obtain ⟨e0, e1⟩ := index0_1 t
  have hacc : acc m c t.val t.isLt = acc m c 15 h15 := by
    obtain ⟨n, hn⟩ := t
    dsimp only at ht
    subst ht
    rfl
  rw [hacc]
  funext j
  show acc m c 15 h15 (win0_1.xinj (grid0.coords t) j) = acc m c 15 h15 (((cfg0.win 1).blk t).view.emb j)
  refine congrArg _ (funext fun a => Fin.ext ?_)
  match a with
  | ⟨0, _⟩ => show (j 0).val = win0_1.index t (0 : Fin 2) * 128 + 1 * (j 0).val; omega
  | ⟨1, _⟩ => show (j 1).val = win0_1.index t (1 : Fin 2) * 1 + 1 * (j 1).val; omega

/-- Every index of the [128, 1] array is in that block. -/
theorem mem_blk1 (t : Fin cfg0.N) (i : S128x1.Idx) : i ∈ ((cfg0.win 1).blk t).view.set := by
  obtain ⟨e0, e1⟩ := index0_1 t
  show i ∈ ((View.whole main_v0).slice (win0_1.rect t)).set
  rw [View.set_slice_whole, Rect.mem_set_unit]
  intro a
  have hi0 : (i 0).val < 128 := (i 0).isLt
  have hi1 : (i 1).val < 1 := (i 1).isLt
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 1 ≤ (i 1).val ∧ (i 1).val < win0_1.index t (1 : Fin 2) * 1 + 1; omega

/-- After the run the [128, 1] result array holds the last running maximum. -/
theorem final_v0 (c : Dev nD) : (dats m 0 c).arrAt 1 cfg0.N = acc m c 15 h15 :=
  (dats m 0 c).arrAt_eq_of_cover 1 (acc m c 15 h15) (fun t hf => flushed1_eq m c t hf)
    (fun i => ⟨⟨15, h15⟩, (flush0_1 _).mpr rfl, mem_blk1 _ i⟩)

/-- And the program's result, its cast to [128], holds that column. -/
theorem result_v1 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_v1) = shapeCast S128 (acc m c 15 h15) shapeCasts_S128x1_S128 := by
  have h1 := (h c).2 main_v1 (Pipeline.mem_restRefs_of main_v1 rfl (by intro w; fin_cases w <;> decide))
  rw [h1]
  unfold Pipeline.afterTail₀
  show StableHlo.after hostOps1 _ (Proc.devRef .tc main_v1) = _
  after_results
  have e := (Pipeline.withArrays_arr spec0 launch0.win.arr_inj c (V0 m c) (fun w => (dats m 0 c).arrAt w cfg0.N) 1).trans (final_v0 m c)
  funext i
  exact congrFun (congrArg (fun v => shapeCast S128 v shapeCasts_S128x1_S128) e) i

end Cert.KernelIdeal.Body
end
-- ==== Proof.InputBlock.lean ====
/-
  The input window's staging buffer after a fetch, read at one index.

  The argument array has 128 rows and 100000 columns; the window cuts it into 16 column blocks of 6400 columns, the block
  at grid point t starting at column t * 6400. Fifteen blocks lie inside the array; the last starts at column 96000 and
  overhangs the array's end by 2400 columns, so its fetch moves its first 4000 columns only and leaves the buffer's other
  columns at what they held. This module says what the buffer holds after the fetch at point t, entry by entry: in row r
  and column q the array's entry in row r and column t * 6400 + q when that column exists, and the prior word otherwise.
-/
import proofs.«121821_g137438954343_cont_week2b_1442_4_alg».proof.Proof.Gen.KernelIdeal.Frame
import Idealize.ShloMosaic.Lib.ValueIdx

noncomputable section

namespace Cert.KernelIdeal.InputBlock

open Cert.KernelIdeal Cert.KernelIdeal.Gen Idealize.ShloMosaic Idealize.ShloMosaic.TcCoe Idealize.ShloMosaic.ValueIdx

variable {F : FTy → Type} [FloatOps F]

/-- Over the sixteen grid points: the fetch at point t moves all 128 rows; it moves 6400 columns, but 4000 at the last
    point (t = 15), where 15 * 6400 + 4000 = 100000 is the array's end; and the block's index is 0 along the rows and t
    along the columns. -/
theorem grid_facts : ∀ t : Fin grid0.N,
    win0_0.xsize (grid0.coords t) 0 = 128
      ∧ win0_0.xsize (grid0.coords t) 1 = (if t.val = 15 then 4000 else 6400)
      ∧ win0_0.index t 0 = 0 ∧ win0_0.index t 1 = t.val := by
  decide +kernel

/-- An entry (r, q) of the block is moved by the fetch at point t exactly when column t * 6400 + q is a column of the
    array: for t below 15 every q below 6400 gives a column at most 95999, and for t = 15 the columns moved are those
    with 96000 + q below 100000, the first 4000. -/
theorem moved_iff_col (t : Fin cfg0.N) (j : S128x6400.Idx) :
    win0_0.moved (grid0.coords t) j = true ↔ t.val * 6400 + (j 1).val < 100000 := by
  have hN : t.val < 16 := Nat.lt_of_lt_of_eq t.isLt N_0
  obtain ⟨hx0, hx1, -, -⟩ := grid_facts t
  have hj0 : (j 0).val < 128 := (j 0).isLt
  have hj1 : (j 1).val < 6400 := (j 1).isLt
  rw [Pipeline.Window.moved_iff]
  constructor
  · intro h
    have h1 : (j 1).val < win0_0.xsize (grid0.coords t) 1 := h 1
    rw [hx1] at h1
    split_ifs at h1 <;> omega
  · intro h a
    match a with
    | ⟨0, _⟩ =>
      show (j 0).val < win0_0.xsize (grid0.coords t) 0
      rw [hx0]; exact hj0
    | ⟨1, _⟩ =>
      show (j 1).val < win0_0.xsize (grid0.coords t) 1
      rw [hx1]; split_ifs <;> omega

/-- The staging buffer after the fetch at point t, holding d before it: in column j 1 of row j 0 the array's entry in
    row j 0 and column t * 6400 + j 1 when that column exists, and the prior word d j otherwise. (A block's coordinate
    in the array is its index times the block size plus the coordinate inside the block: 0 * 128 + j 0 along the rows,
    t * 6400 + j 1 along the columns.) -/
theorem fill_iblk_apply (m : (ℓ : Loc nD τ sig) → Buf (Elt F) ℓ) (c : Dev nD) (t : Fin cfg0.N)
    (d : S128x6400.Idx → Elt F .f32) (j : S128x6400.Idx) :
    win0_0.fill (grid0.coords t) d (iblk m c 0 t) j
      = if h : t.val * 6400 + (j 1).val < 100000 then
          (m ((c : Thread nD τ).loc main_arg0) : S128x100000.Idx → Elt F .f32) (ix2 (j 0) ⟨t.val * 6400 + (j 1).val, h⟩)
        else d j := by
  obtain ⟨-, -, hi0, hi1⟩ := grid_facts t
  by_cases h : t.val * 6400 + (j 1).val < 100000
  · rw [dif_pos h]
    unfold Pipeline.Window.fill
    rw [dif_pos ((moved_iff_col t j).mpr h)]
    unfold iblk
    rw [View.read_apply]
    show V m c main_arg0 _ = m (c.tc.loc main_arg0) _
    unfold V
    congr 1
    funext a
    apply Fin.ext
    match a with
    | ⟨0, _⟩ =>
      show win0_0.index t 0 * 128 + 1 * (j 0).val = (j 0).val
      rw [hi0]; omega
    | ⟨1, _⟩ =>
      show win0_0.index t 1 * 6400 + 1 * (j 1).val = t.val * 6400 + (j 1).val
      rw [hi1]; omega
  · rw [dif_neg h]
    exact win0_0.fill_of_not_moved (grid0.coords t) d (iblk m c 0 t) (fun hm => h ((moved_iff_col t j).mp hm))

end Cert.KernelIdeal.InputBlock

end
-- ==== Proof.RowMaxIdx.lean ====
import proofs.«121821_g137438954343_cont_week2b_1442_4_alg».proof.Proof.Gen.ReferenceIdeal.Read
import proofs.«121821_g137438954343_cont_week2b_1442_4_alg».proof.Proof.PayloadMask

noncomputable section

namespace Cert.RowMax

open Idealize.ShloMosaic Idealize.ShloMosaic.ValueIdx

/-! ## The payloads and the reference at an index, at the ideal values

At the ideal values a float is an extended real, `maximumf` is `max`, and the pattern `0xFF800000` (`-∞`) is
`⊥`. The first payload is `⊥` everywhere; the second is, at row `r`, the maximum of the old output and the
supremum of the block's entries of row `r` at the columns inside the row; the reference is, at row `r`, the
supremum of the whole row. -/

/-- The pattern `0xFF800000` denotes `⊥`. -/
theorem neg_inf_eq_bot : Ideal.ofBits .f32 0xFF800000#32 = ⊥ := by
  simp [Ideal.ofBits, Ideal.ieee]

/-- The first payload, the splat of `-∞`, is `⊥` at every index. -/
theorem ideal_pay1_apply (y : Cert.KernelIdeal.S128x1.Idx) : Cert.KernelIdeal.Gen.k0_pay1 (F := Ideal) y = ⊥ :=
  neg_inf_eq_bot

/-- The second payload at row `r`: the maximum of the old output there and the supremum, over the block's
    columns, of the block's entry where the column's absolute position `i * 6400 + k` is inside the row, `⊥`
    where it is past the row's end. -/
theorem ideal_pay2_apply (i : Cert.KernelIdeal.grid0.Coords) (x : Vec Ideal Cert.KernelIdeal.S128x6400 .f32)
    (y : Vec Ideal Cert.KernelIdeal.S128x1 .f32) (r : Fin 128) :
    Cert.KernelIdeal.Gen.k0_pay2 (F := Ideal) i x y (ix2 r 0)
      = max (y (ix2 r 0)) (Finset.univ.sup fun k : Fin 6400 =>
          if (i 0).val * 6400 + k.val < 100000 then x (ix2 r k) else ⊥) := by
  have hi : (i 0).val < 16 := (i 0).isLt
  rw [ideal_pay2_eq, maximumf_apply, shapeCast_self]
  refine congrArg (max (y (ix2 r 0))) ?_
  refine (MaskedMax.shapeCast_a_a1_apply _ _ r 0).trans ?_
  refine (MaskedMax.multiReduction_maximumf_rows _ _ _ _ _ neg_inf_eq_bot r).trans ?_
  refine Finset.sup_congr rfl fun k _ => ?_
  rw [MaskedMax.select_colMask_apply _ (i 0).val 6400 100000 (by omega) (by norm_num), broadcast_apply]
  show (if (i 0).val * 6400 + k.val < 100000 then x (ix2 r k) else Ideal.ofBits .f32 0xFF800000#32) = _
  rw [neg_inf_eq_bot]

/-- The reference at row `r`: the supremum of the row. -/
theorem reference_apply (X : Vec Ideal Cert.ReferenceIdeal.S128x100000 .f32) (r : Fin 128) :
    Cert.ReferenceIdeal.Read.val_main_v0 (F := Ideal) X (ix1 r)
      = Finset.univ.sup fun k : Fin 100000 => X (ix2 r k) := by
  unfold Cert.ReferenceIdeal.Read.val_main_v0
  exact MaskedMax.hostReduce_maximumf_rows (φ := .f32) X _ _ (by decide) _ neg_inf_eq_bot r

end Cert.RowMax

end
-- ==== Proof.LibMaskedBlocks.lean ====
import proofs.«121821_g137438954343_cont_week2b_1442_4_alg».proof.Proof.LibMaskedMax

noncomputable section

namespace MaskedMax

variable {α : Type*} [LinearOrder α] [OrderBot α]

/-- A block that reads a longer row `f` at the columns inside it (`hx`): the supremum of the block masked
    to those columns (plain `if`) is the blocked supremum's term for block `s` (dependent `if`). -/
theorem sup_masked_block_eq {n B : Nat} (s : ℕ) (f : Fin n → α) (x : Fin B → α)
    (hx : ∀ (k : Fin B) (h : s * B + k.val < n), x k = f ⟨s * B + k.val, h⟩) :
    (Finset.univ.sup fun k : Fin B => if s * B + k.val < n then x k else ⊥)
      = Finset.univ.sup fun k : Fin B => if h : s * B + k.val < n then f ⟨s * B + k.val, h⟩ else ⊥ := by
  refine Finset.sup_congr rfl fun k _ => ?_
  by_cases h : s * B + k.val < n
  · rw [if_pos h, dif_pos h, hx k h]
  · rw [if_neg h, dif_neg h]

/-- THE WHOLE ROW FROM ITS MASKED BLOCKS: if block `s` reads the row `f` at the columns inside it, the
    supremum over the blocks `s < T` of the masked blocks' suprema is the supremum of the row. -/
theorem sup_masked_blocks_range {n T B : Nat} (hn : n ≤ T * B) (f : Fin n → α) (x : ℕ → Fin B → α)
    (hx : ∀ s, s < T → ∀ (k : Fin B) (h : s * B + k.val < n), x s k = f ⟨s * B + k.val, h⟩) :
    ((Finset.range T).sup fun s : ℕ => Finset.univ.sup fun k : Fin B =>
        if s * B + k.val < n then x s k else ⊥) = Finset.univ.sup f := by
  rw [← sup_blocks_range hn f]
  refine Finset.sup_congr rfl fun s hs => ?_
  exact sup_masked_block_eq s f (x s) (hx s (Finset.mem_range.mp hs))

end MaskedMax

end
-- ==== Proof.RowMax.lean ====
/-
  The row-maximum kernel's result is the reference's.

  After block n the running maximum of row r is the supremum, over the blocks s ≤ n, of the largest entry of row r
  among block s's columns that lie inside the array (columns s · 6400 + k with s · 6400 + k < 100000): each step takes
  the maximum of the previous value and of the block's masked row maximum, and the first step starts from the lowest
  value. The sixteen blocks' columns inside the array are exactly the array's 100000 columns, so after the last block
  the running maximum of row r is the supremum of the whole row — which is what a maximum-reduction over the second
  axis, started from the lowest value, computes. Only the lattice laws of the maximum are used: no entry needs to be
  finite.
-/
import proofs.«121821_g137438954343_cont_week2b_1442_4_alg».proof.Proof.FrameIdeal
import proofs.«121821_g137438954343_cont_week2b_1442_4_alg».proof.Proof.InputBlock
import proofs.«121821_g137438954343_cont_week2b_1442_4_alg».proof.Proof.RowMaxIdx
import proofs.«121821_g137438954343_cont_week2b_1442_4_alg».proof.Proof.LibMaskedBlocks
import Idealize.ShloMosaic.Lib.Pipeline.Value

set_option maxRecDepth 16384

noncomputable section

namespace Cert.KernelIdeal.RowValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The argument array on core `c`, as a function of its two coordinates' index. -/
abbrev argX : S128x100000.Idx → EReal := m ((c : Thread nD τ).loc main_arg0)

/-- Row `r` of the staging buffer after the fetch of block `s` (the lowest value for a block number past the grid). -/
def colAt (r : Fin 128) (s : ℕ) (k : Fin 6400) : EReal :=
  if hs : s < cfg0.N then xin m c ⟨s, hs⟩ zfill (ix2 r k) else ⊥

/-- Block `s`'s masked maximum of row `r`: over its columns inside the array. -/
def blockMax (r : Fin 128) (s : ℕ) : EReal :=
  Finset.univ.sup fun k : Fin 6400 => if s * 6400 + k.val < 100000 then colAt m c r s k else ⊥

/-- The body's result at row `r`: the maximum of what the result buffer held and the block's masked row maximum. -/
theorem pay2_row (r : Fin 128) (t : Fin cfg0.N) (y : Vec Ideal S128x1 .f32) :
    k0_pay2 (F := Ideal) (grid0.coords t) (xin m c t zfill) y (ix2 r 0) = max (y (ix2 r 0)) (blockMax m c r t.val) := by
  rw [Cert.RowMax.ideal_pay2_apply, (xsize0_0 t).2.2]
  refine congrArg (max _) ?_
  unfold blockMax colAt
  refine Finset.sup_congr rfl fun k _ => ?_
  rw [dif_pos t.isLt]

/-- After block `n` the running maximum of row `r` is the supremum of the blocks' masked row maxima up to `n`. -/
theorem acc_row (r : Fin 128) : ∀ (n : ℕ) (hn : n < cfg0.N),
    acc m c n hn (ix2 r 0) = (Finset.range (n + 1)).sup (blockMax m c r)
  | 0, hn => by
    have e : acc m c 0 hn = k0_pay2 (grid0.coords ⟨0, hn⟩) (xin m c ⟨0, hn⟩ zfill) (k0_pay1 (F := Ideal)) := rfl
    rw [e, pay2_row m c r ⟨0, hn⟩, Cert.RowMax.ideal_pay1_apply, Finset.range_one, Finset.sup_singleton]
    exact max_bot_left _
  | n + 1, hn => by
    have e : acc m c (n + 1) hn = k0_pay2 (grid0.coords ⟨n + 1, hn⟩) (xin m c ⟨n + 1, hn⟩ zfill)
        (acc m c n (Nat.lt_of_succ_lt hn)) := rfl
    rw [e, pay2_row m c r ⟨n + 1, hn⟩, acc_row r n (Nat.lt_of_succ_lt hn), Finset.range_add_one (n := n + 1),
      Finset.sup_insert]
    exact max_comm _ _

/-- After the last block it is the supremum of the whole row: the blocks' columns inside the array are the array's. -/
theorem row_eq (r : Fin 128) :
    acc m c 15 h15 (ix2 r 0) = Finset.univ.sup fun k : Fin 100000 => argX m c (ix2 r k) := by
  rw [acc_row m c r 15 h15]
  unfold blockMax
  refine MaskedMax.sup_masked_blocks_range (n := 100000) (T := 16) (B := 6400) (by norm_num)
    (fun k : Fin 100000 => argX m c (ix2 r k)) (colAt m c r) (fun s hs k h => ?_)
  have hs' : s < cfg0.N := lt_of_lt_of_eq hs (show cfg0.N = 16 from N_0).symm
  unfold colAt xin
  rw [dif_pos hs', Cert.KernelIdeal.InputBlock.fill_iblk_apply]
  exact dif_pos h

/-- The program's result — the last running maximum cast to [128] — is the reference's maximum over the second axis. -/
theorem result_eq : shapeCast S128 (acc m c 15 h15) shapeCasts_S128x1_S128
    = Cert.ReferenceIdeal.Read.val_main_v0 (F := Ideal) (argX m c) := by
  funext j
  obtain ⟨r, rfl⟩ : ∃ r : Fin 128, j = ix1 r := ⟨j 0, eq_ix1 j⟩
  rw [Cert.RowMax.reference_apply, ← row_eq m c r]
  exact shapeCast_apply _ _ _ _ (by
    rw [Shape.rowMajor_val_two, Shape.rowMajor_val_one]
    show r.val * 1 + 0 = r.val
    omega)

variable (ρ : Dev nD → PrngReg)

/-- The argument array is left as it was. -/
theorem kept_arg0 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- The kernel's run with its result named: every weakly fair execution ends with the result at the reference's
    maximum-reduction of the argument, and the argument unchanged. -/
theorem run_value : θ_run defs (onTc (τ := τ) (main (F := Ideal))) ⟨m, fun _ => 0, ρ⟩ (fun r => ∀ c : Dev nD,
      r.2.mem ((c.tc : Thread nD τ).loc main_v1) = Cert.ReferenceIdeal.Read.val_main_v0 (F := Ideal) (argX m c)
      ∧ r.2.mem ((c.tc : Thread nD τ).loc main_arg0) = m ((c.tc : Thread nD τ).loc main_arg0)) :=
  (θ_run defs _ _).mono (fun r h c => ⟨(result_v1 m r h c).trans (result_eq m c), kept_arg0 m r h c⟩)
    (run_main (F := Ideal) m ρ)

end Cert.KernelIdeal.RowValue

end
-- ==== Proof.lean ====
/-
  Row maxima of a 128 × 100000 array, taken block by block, against one maximum-reduction.

  The kernel streams the array's columns in sixteen blocks of 6400 (the last one cut at the array's end, its columns
  past the end replaced by the lowest value) and keeps, row by row, the running maximum in a [128, 1] buffer that starts
  at the lowest value; the reference reduces the second axis by the maximum, from the lowest value. On the extended
  reals both are the supremum of each row: the lowest value is the supremum's neutral element, and the blocks' columns
  inside the array are the array's columns (Proof/RowMax.lean, over the generated run of the reference). The maximum
  is a lattice operation, so the finiteness of the inputs is never used.

  The kernel's frame — at machine words and at the extended reals — is the running maximum carried through the
  sixteen points (Proof/FrameWord.lean, Proof/FrameIdeal.lean); the reference's frame is its run with the result
  dropped; the idealization rewrote no operation, so it preserves the kernel trivially.
-/
import proofs.«121821_g137438954343_cont_week2b_1442_4_alg».proof.Defs
import proofs.«121821_g137438954343_cont_week2b_1442_4_alg».proof.Proof.Gen.Kernel
import proofs.«121821_g137438954343_cont_week2b_1442_4_alg».proof.Proof.Gen.KernelIdeal
import proofs.«121821_g137438954343_cont_week2b_1442_4_alg».proof.Proof.Gen.ReferenceIdeal
import proofs.«121821_g137438954343_cont_week2b_1442_4_alg».proof.Proof.Gen.Pre_finite_inputs
import proofs.«121821_g137438954343_cont_week2b_1442_4_alg».proof.Proof.Gen.ReferenceIdeal.Run
import proofs.«121821_g137438954343_cont_week2b_1442_4_alg».proof.Proof.Gen.ReferenceIdeal.Read
import proofs.«121821_g137438954343_cont_week2b_1442_4_alg».proof.Proof.FrameWord
import proofs.«121821_g137438954343_cont_week2b_1442_4_alg».proof.Proof.RowMax
import Idealize.ShloMosaic.Adequacy
import Idealize.ShloMosaic.Init

noncomputable section

namespace Cert.Proof

open Idealize.ShloMosaic Idealize.SL.Sem

/-- The kernel at machine words runs to the end and leaves its argument as it was. -/
theorem frame_kernel : Cert.frame_Kernel := fun m ρ _ => Cert.Kernel.Body.frame (F := Bits) m ρ

/-- So does its idealization. -/
theorem frame_kernelIdeal : Cert.frame_KernelIdeal := fun m ρ _ => Cert.KernelIdeal.Body.frame (F := Ideal) m ρ

/-- And the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals the kernel's result and the reference's are one array: each row's supremum. -/
theorem algebraic : Cert.algebraic_KernelIdeal_ReferenceIdeal := by
  intro m ρ m' ρ' _ hagree
  refine ⟨fun c => Cert.ReferenceIdeal.Read.val_main_v0 (F := Ideal) (Cert.KernelIdeal.RowValue.argX m c),
    Cert.KernelIdeal.RowValue.run_value m ρ, ?_⟩
  refine (θ_run Cert.ReferenceIdeal.defs _ _).mono (fun _ h c => ⟨(h c).1.trans ?_, (h c).2⟩)
    (Cert.ReferenceIdeal.Value.run (F := Ideal) m' ρ')
  rw [hagree c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
